-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536 : Shape := ⟨1, ![65536]⟩
abbrev S8x8 : Shape := ⟨2, ![8, 8]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_

variable [Facts]

def fn_part1 {F : FTy → Type} [FloatOps F] (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  main_v18

def fn {F : FTy → Type} [FloatOps F] (main_arg0 : FVec F S65536x256 .f32) (main_arg1 : FVec F S65536x256 .f32) (main_arg2 : FVec F S65536x256 .f32) (main_arg3 : IVec S65536 32) (main_arg4 : IVec S65536 32) (main_arg5 : FVec F S8x8 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S8x8 .f32 := Host.absf main_arg5
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_v13 main_v16
-- ==== Kernel.lean ====
abbrev S65536x256 : Shape := ⟨2, ![65536, 256]⟩
abbrev S65536 : Shape := ⟨1, ![65536]⟩
abbrev S8x8 : Shape := ⟨2, ![8, 8]⟩
abbrev S_ : Shape := ⟨0, ![]⟩
abbrev S65536x1 : Shape := ⟨2, ![65536, 1]⟩
abbrev S65536x2 : Shape := ⟨2, ![65536, 2]⟩
abbrev S16x1x2 : Shape := ⟨3, ![16, 1, 2]⟩
abbrev S4096x256 : Shape := ⟨2, ![4096, 256]⟩
abbrev S4096x1 : Shape := ⟨2, ![4096, 1]⟩
abbrev S1x1x2 : Shape := ⟨3, ![1, 1, 2]⟩
abbrev S1x4096x256 : Shape := ⟨3, ![1, 4096, 256]⟩
abbrev S1 : Shape := ⟨1, ![1]⟩
abbrev S1x1x1 : Shape := ⟨3, ![1, 1, 1]⟩
abbrev S4096 : Shape := ⟨1, ![4096]⟩
abbrev S1x4096x1 : Shape := ⟨3, ![1, 4096, 1]⟩
abbrev S2 : Shape := ⟨1, ![2]⟩
abbrev S16x2 : Shape := ⟨2, ![16, 2]⟩
abbrev S16x1 : Shape := ⟨2, ![16, 1]⟩
abbrev S16 : Shape := ⟨1, ![16]⟩

abbrev nBuf : Space → Nat
  | .hbm => 40
  | .vmem => 10
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536, .i32⟩
  | .hbm, ⟨4, _⟩ => ⟨S65536, .i32⟩
  | .hbm, ⟨5, _⟩ => ⟨S8x8, .f32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S_, .i32⟩
  | .hbm, ⟨14, _⟩ => ⟨S65536, .i32⟩
  | .hbm, ⟨15, _⟩ => ⟨S65536, .i1⟩
  | .hbm, ⟨16, _⟩ => ⟨S_, .i32⟩
  | .hbm, ⟨17, _⟩ => ⟨S65536, .i32⟩
  | .hbm, ⟨18, _⟩ => ⟨S65536, .i32⟩
  | .hbm, ⟨19, _⟩ => ⟨S65536, .i32⟩
  | .hbm, ⟨20, _⟩ => ⟨S65536x1, .i32⟩
  | .hbm, ⟨21, _⟩ => ⟨S65536x1, .i32⟩
  | .hbm, ⟨22, _⟩ => ⟨S65536x2, .i32⟩
  | .hbm, ⟨23, _⟩ => ⟨S65536, .f32⟩
  | .hbm, ⟨24, _⟩ => ⟨S65536x1, .f32⟩
  | .hbm, ⟨25, _⟩ => ⟨S16x1x2, .f32⟩
  | .hbm, ⟨26, _⟩ => ⟨S16x2, .f32⟩
  | .hbm, ⟨27, _⟩ => ⟨S16x1, .f32⟩
  | .hbm, ⟨28, _⟩ => ⟨S16, .f32⟩
  | .hbm, ⟨29, _⟩ => ⟨S_, .f32⟩
  | .hbm, ⟨30, _⟩ => ⟨S_, .f32⟩
  | .hbm, ⟨31, _⟩ => ⟨S16x1, .f32⟩
  | .hbm, ⟨32, _⟩ => ⟨S16, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x1, .f32⟩
  | .local _ .vmem, ⟨7, _⟩ => ⟨S4096x1, .f32⟩
  | .local _ .vmem, ⟨8, _⟩ => ⟨S1x1x2, .f32⟩
  | .local _ .vmem, ⟨9, _⟩ => ⟨S1x1x2, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  shapeCasts_S65536_S65536x1 : S65536.ShapeCasts S65536x1
  inb_S4096x256_S4096x256_0_0 : ∀ a, (![0, 0] : Fin 2 → Nat) a + S4096x256.size a ≤ S4096x256.size a
  h_S4096x256 : 0 < S4096x256.numel
  shapeCasts_S4096x256_S1x4096x256 : S4096x256.ShapeCasts S1x4096x256
  reduces_S1x4096x256_S1 : S1x4096x256.Reduces [1, 2] S1
  shapeCasts_S1_S1x1x1 : S1.ShapeCasts S1x1x1
  inpos_S1x1x1_p0_0_0 : ∀ a, (![0, 0, 0] : Fin 3 → Nat) a < S1x1x1.size a
  reduces_S4096x256_S4096 : S4096x256.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  shapeCasts_S4096x1_S1x4096x1 : S4096x1.ShapeCasts S1x4096x1
  reduces_S1x4096x1_S1 : S1x4096x1.Reduces [1, 2] S1
  concatenates_S1_S1_S2_d0 : Shape.Concatenates [S1, S1] S2 0
  shapeCasts_S2_S1x1x2 : S2.ShapeCasts S1x1x2
  inb_S1x1x2_S1x1x2_0_0_0 : ∀ a, (![0, 0, 0] : Fin 3 → Nat) a + S1x1x2.size a ≤ S1x1x2.size a
  h_S1x1x2 : 0 < S1x1x2.numel
  shapeCasts_S16x1x2_S16x2 : S16x1x2.ShapeCasts S16x2
  slices_S16x2_S16x1_0_0 : S16x2.Slices ![0, 0] S16x1
  shapeCasts_S16x1_S16 : S16x1.ShapeCasts S16
  reducesTo_S16_S_d0 : S16.ReducesTo [0] S_
  h_S_ : 0 < S_.numel
  slices_S16x2_S16x1_0_1 : S16x2.Slices ![0, 1] S16x1
  gather_S8x8_S65536x2_S65536_n_01_n_n_01_1_11_wf : GatherDims.WF S8x8 S65536x2 S65536 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S65536x256.size a
  hwx0_2 : ∀ i : grid0.Coords, EltTy.bits .f32 = 32 ∨ (Rect.block (s := S65536x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S65536x1.size a
  hwx0_3 : ∀ i : grid0.Coords, EltTy.bits .f32 = 32 ∨ (Rect.block (s := S65536x1) S4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2.size a ≤ S16x1x2.size a
  hwx0_4 : ∀ i : grid0.Coords, EltTy.bits .f32 = 32 ∨ (Rect.block (s := S16x1x2) S1x1x2.size (cc0_transform_4 i) (hinb0_4 i)).WholeWords (EltTy.packing .f32)

variable [Facts₀]

def gather_S8x8_S65536x2_S65536_n_01_n_n_01_1_11 : GatherDims S8x8 S65536x2 S65536 where
  offsetDims := []
  collapsedSliceDims := [0, 1]
  operandBatchingDims := []
  startIndicesBatchingDims := []
  startIndexMap := [0, 1]
  indexVectorDim := 1
  sliceSizes := ![1, 1]
  wf := gather_S8x8_S65536x2_S65536_n_01_n_n_01_1_11_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536 : Shape := ⟨1, ![65536]⟩
abbrev S8x8 : Shape := ⟨2, ![8, 8]⟩
abbrev S_ : Shape := ⟨0, ![]⟩
abbrev S65536x1 : Shape := ⟨2, ![65536, 1]⟩
abbrev S65536x2 : Shape := ⟨2, ![65536, 2]⟩

abbrev nBuf : Space → Nat
  | .hbm => 42
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536, .i32⟩
  | .hbm, ⟨4, _⟩ => ⟨S65536, .i32⟩
  | .hbm, ⟨5, _⟩ => ⟨S8x8, .f32⟩
  | .hbm, ⟨6, _⟩ => ⟨S65536x256, .f32⟩
  | .hbm, ⟨7, _⟩ => ⟨S65536x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S65536x256, .f32⟩
  | .hbm, ⟨13, _⟩ => ⟨S65536x256, .f32⟩
  | .hbm, ⟨14, _⟩ => ⟨S_, .f32⟩
  | .hbm, ⟨15, _⟩ => ⟨S65536, .f32⟩
  | .hbm, ⟨16, _⟩ => ⟨S65536, .f32⟩
  | .hbm, ⟨17, _⟩ => ⟨S_, .i32⟩
  | .hbm, ⟨18, _⟩ => ⟨S65536, .i32⟩
  | .hbm, ⟨19, _⟩ => ⟨S65536, .i1⟩
  | .hbm, ⟨20, _⟩ => ⟨S_, .i32⟩
  | .hbm, ⟨21, _⟩ => ⟨S65536, .i32⟩
  | .hbm, ⟨22, _⟩ => ⟨S65536, .i32⟩
  | .hbm, ⟨23, _⟩ => ⟨S65536, .i32⟩
  | .hbm, ⟨24, _⟩ => ⟨S_, .i32⟩
  | .hbm, ⟨25, _⟩ => ⟨S65536, .i32⟩
  | .hbm, ⟨26, _⟩ => ⟨S65536, .i1⟩
  | .hbm, ⟨27, _⟩ => ⟨S_, .i32⟩
  | .hbm, ⟨28, _⟩ => ⟨S65536, .i32⟩
  | .hbm, ⟨29, _⟩ => ⟨S65536, .i32⟩
  | .hbm, ⟨30, _⟩ => ⟨S65536, .i32⟩
  | .hbm, ⟨31, _⟩ => ⟨S65536x1, .i32⟩
  | .hbm, ⟨32, _⟩ => ⟨S65536x1, .i32⟩
  | .hbm, ⟨33, _⟩ => ⟨S65536x2, .i32⟩
  | .hbm, ⟨34, _⟩ => ⟨S65536, .f32⟩
  | .hbm, ⟨35, _⟩ => ⟨S65536, .f32⟩
  | .hbm, ⟨36, _⟩ => ⟨S65536, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  reducesTo_S65536x256_S_d0_1 : S65536x256.ReducesTo [0, 1] S_
  h_S_ : 0 < S_.numel
  reducesTo_S65536x256_S65536_d1 : S65536x256.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  reducesTo_S65536_S_d0 : S65536.ReducesTo [0] S_
  gather_S8x8_S65536x2_S65536_n_01_n_n_01_1_11_wf : GatherDims.WF S8x8 S65536x2 S65536 [] [0, 1] [] [0, 1] [] 1 ![1, 1]

variable [Facts₀]

def gather_S8x8_S65536x2_S65536_n_01_n_n_01_1_11 : GatherDims S8x8 S65536x2 S65536 where
  offsetDims := []
  collapsedSliceDims := [0, 1]
  operandBatchingDims := []
  startIndicesBatchingDims := []
  startIndexMap := [0, 1]
  indexVectorDim := 1
  sliceSizes := ![1, 1]
  wf := gather_S8x8_S65536x2_S65536_n_01_n_n_01_1_11_wf

class Facts : Prop extends Facts₀ where

variable [Facts]
-- ==== Proof.LibTileSum.lean ====
/-
  Sums regrouped by tiles of rows, in any commutative additive monoid (so also on the extended reals, where no
  finiteness is asked: only commutativity and associativity of the sum are used).

  * `sum_tiles`: the sum over `A * B` consecutive rows is the sum over `A` tiles of the sums over each tile's `B`
    rows; row `B * t + r` of the whole is row `r` of tile `t` (`tileRow`).
  * `sum_idx1`, `sum_unitCol`: a sum over the multi-indices of a vector `[n]`, or of a one-column matrix `[n, 1]`,
    is the sum over the row coordinate.
  * `sum_shapeCast`: a shape cast keeps every element at its row-major position, so the sum over a shape cast of a
    vector is the sum over the vector.
-/
import Idealize.ShloMosaic.Lib.ValueIdx

noncomputable section

open scoped BigOperators

namespace Cert.Lib.TileSum

open Idealize.ShloMosaic Idealize.ShloMosaic.ValueIdx

variable {M : Type} [AddCommMonoid M]

/-- Row `r` of tile `t`, among `A` tiles of `B` rows each, is a row of the whole. -/
theorem tile_row_lt {A B : ℕ} (t : Fin A) (r : Fin B) : B * t.val + r.val < A * B := by
  have h1 : B * t.val + r.val < B * t.val + B := Nat.add_lt_add_left r.isLt _
  have h2 : B * t.val + B ≤ A * B := by
    have h3 : B * (t.val + 1) ≤ B * A := Nat.mul_le_mul_left B t.isLt
    rw [Nat.mul_add, Nat.mul_one, Nat.mul_comm B A] at h3
    exact h3
  exact lt_of_lt_of_le h1 h2

/-- Row `r` of tile `t` as a row of the whole: number `B * t + r`. -/
def tileRow {A B N : ℕ} (h : A * B = N) (t : Fin A) (r : Fin B) : Fin N :=
  ⟨B * t.val + r.val, h ▸ tile_row_lt t r⟩

@[simp] theorem tileRow_val {A B N : ℕ} (h : A * B = N) (t : Fin A) (r : Fin B) :
    (tileRow h t r).val = B * t.val + r.val := rfl

/-- A sum over all rows is the sum over the tiles of the sums over each tile's rows. -/
theorem sum_tiles {A B N : ℕ} (h : A * B = N) (f : Fin N → M) :
    ∑ t : Fin A, ∑ r : Fin B, f (tileRow h t r) = ∑ j : Fin N, f j := by
  subst h
  calc ∑ t : Fin A, ∑ r : Fin B, f (tileRow rfl t r)
      = ∑ x : Fin A × Fin B, f (tileRow rfl x.1 x.2) := (Fintype.sum_prod_type' fun t r => f (tileRow rfl t r)).symm
    _ = ∑ x : Fin A × Fin B, f (finProdFinEquiv x) :=
        Finset.sum_congr rfl fun x _ => congrArg f (Fin.ext (Nat.add_comm _ _))
    _ = ∑ j : Fin (A * B), f j := Equiv.sum_comp finProdFinEquiv f

/-- The multi-indices of a vector `[n]` are its coordinates … -/
def idxEquiv1 {n : ℕ} : (⟨1, ![n]⟩ : Shape).Idx ≃ Fin n where
  toFun i := i 0
  invFun a := ix1 a
  left_inv i := (eq_ix1 i).symm
  right_inv _ := rfl

/-- … so a sum over them is the sum over the coordinate. -/
theorem sum_idx1 {n : ℕ} (f : (⟨1, ![n]⟩ : Shape).Idx → M) : ∑ i, f i = ∑ a : Fin n, f (ix1 a) :=
  (Equiv.sum_comp (idxEquiv1 (n := n)).symm f).symm

/-- A sum over the multi-indices of a one-column matrix `[n, 1]` is the sum over the rows. -/
theorem sum_unitCol {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- A shape cast relabels positions, one to one: the sum over a shape cast of `v` is the sum over `v`. -/
theorem sum_shapeCast {s t : Shape} (v : s.Idx → M) (h : s.ShapeCasts t) :
    ∑ j : t.Idx, shapeCast t v h j = ∑ i : s.Idx, v i :=
  Equiv.sum_comp (Shape.reshapeEquiv h) v

end Cert.Lib.TileSum

end
-- ==== Proof.Spec.lean ====
/-
  The loss both programs compute, as ONE function of the four arrays it depends on: the anchor, positive and negative
  embeddings `a p n : [65536, 256]` and the per-sample margin `g : [65536]` (the margin table gathered at the two
  label vectors; how it is gathered plays no part here).

      loss = (∑ j, ∑ k, (a j k − p j k)²) / 2²⁴  +  (∑ j, (g j − √(∑ k, (a j k − n j k)²))²) / 2¹⁶

  on the extended reals, every operation the exact one. The kernel computes the two sums tile by tile, sixteen tiles of
  4096 rows, and adds the sixteen partial sums afterwards; `mseSum_tiles` and `negSum_tiles` say that this is the same
  sum. Only commutativity and associativity of the sum are used, so nothing is asked of the inputs.
-/
import proofs.«132869_j25890062860768_2_alg».proof.Proof.LibTileSum
import Idealize.ShloMosaic.PureOps.Ideal

noncomputable section

open scoped BigOperators

namespace Cert.Spec

open Idealize.ShloMosaic Idealize.ShloMosaic.ValueIdx Cert.Lib.TileSum

/-- An embedding array. -/
abbrev Mat : Type := (⟨2, ![65536, 256]⟩ : Shape).Idx → EReal
/-- A per-sample vector. -/
abbrev Col : Type := (⟨1, ![65536]⟩ : Shape).Idx → EReal

/-- The squared difference. -/
def sqDiff (x y : EReal) : EReal := (x - y) * (x - y)

/-- The squared distance between row `j` of `a` and row `j` of `b`. -/
def rowSq (a b : Mat) (j : Fin 65536) : EReal := ∑ k : Fin 256, sqDiff (a (ix2 j k)) (b (ix2 j k))

/-- Sample `j`'s squared residual of its margin against its distance to the negative. -/
def resid (a n : Mat) (g : Col) (j : Fin 65536) : EReal := sqDiff (g (ix1 j)) (Ideal.sqrt (rowSq a n j))

/-- The sum of squared differences of `a` and `p` over every element. -/
def mseSum (a p : Mat) : EReal := ∑ j : Fin 65536, rowSq a p j

/-- The sum of the squared residuals over every sample. -/
def negSum (a n : Mat) (g : Col) : EReal := ∑ j : Fin 65536, resid a n g j

/-- The loss: the mean squared difference to the positive plus the mean squared residual. -/
def loss (a p n : Mat) (g : Col) : EReal :=
  Ideal.div (mseSum a p) (Ideal.ofBits .f32 0x4B800000#32) + Ideal.div (negSum a n g) (Ideal.ofBits .f32 0x47800000#32)

/-- Sixteen tiles of 4096 rows are the 65536 rows. -/
theorem tiles : 16 * 4096 = 65536 := by norm_num

/-- Row `r` of tile `t`. -/
abbrev row (t : Fin 16) (r : Fin 4096) : Fin 65536 := tileRow tiles t r

/-- The first sum, tile by tile. -/
theorem mseSum_tiles (a p : Mat) : mseSum a p = ∑ t : Fin 16, ∑ r : Fin 4096, rowSq a p (row t r) :=
  (sum_tiles tiles (rowSq a p)).symm

/-- The second sum, tile by tile. -/
theorem negSum_tiles (a n : Mat) (g : Col) : negSum a n g = ∑ t : Fin 16, ∑ r : Fin 4096, resid a n g (row t r) :=
  (sum_tiles tiles (resid a n g)).symm

end Cert.Spec

end
-- ==== Proof.RefIsLoss.lean ====
/-
  The reference computes the loss. Read one operation at a time, its result is

      (0 + ∑ over every element of (a − p)²) / 2²⁴ + (0 + ∑ over every sample of (g − √(0 + ∑ over the row of (a − n)²))²) / 2¹⁶,

  with `g` the margin table gathered at the two label vectors. The sum over the elements of a matrix is the double sum
  over rows and columns, the sum over a vector's indices the sum over its coordinate, and `0 + x = x`: that is `loss`.
-/
import proofs.«132869_j25890062860768_2_alg».proof.Proof.Gen.ReferenceIdeal.Read
import proofs.«132869_j25890062860768_2_alg».proof.Proof.Spec
import Idealize.ShloMosaic.PureOps.Ideal.Laws

noncomputable section

open scoped BigOperators

namespace Cert.RefValue

open Cert.ReferenceIdeal Cert.ReferenceIdeal.Gen Cert.ReferenceIdeal.Read Cert.Spec Cert.Lib.TileSum
open Idealize.ShloMosaic Idealize.ShloMosaic.ValueIdx

/-- The per-sample margin as the reference gathers it: the margin table at each sample's pair of labels. -/
abbrev margin (al nl : (⟨S65536, .i32⟩ : BufTy).Contents (Elt Ideal)) (mm : (⟨S8x8, .f32⟩ : BufTy).Contents (Elt Ideal)) : Col :=
  val_main_v21 (F := Ideal) al nl mm

/-- The row sum's index at row `j` and column `k` is the element `(j, k)`. -/
theorem idx_row (j : Fin 65536) (k : Fin 256) : idx_main_v6 (ix1 j) k = ix2 j k :=
  funext fun d => by match d with | ⟨0, _⟩ => rfl | ⟨1, _⟩ => rfl

/-- The reference's row sum of squared differences, from zero, is the squared distance of the two rows. -/
theorem rowSum_eq (a b : Mat) (j : Fin 65536) : val_main_v6 (F := Ideal) a b (ix1 j) = rowSq a b j := by
  rw [val_main_v6_apply]
  rw [show (val_main_cst_1 (F := Ideal)) (Shape.Idx.first h_S_) = 0 from Ideal.ofBits_zero_f32, zero_add]
  refine Finset.sum_congr rfl fun k _ => ?_
  rw [idx_row]
  rfl

/-- The reference's sum over every element of the squared differences is the first sum of the loss. -/
theorem elemSum_eq (a p : Mat) : ∑ i : S65536x256.Idx, val_main_v1 (F := Ideal) a p i = mseSum a p := by
  rw [sum_idx2]
  rfl

/-- The reference's sum over every sample of the squared residuals is the second sum of the loss. -/
theorem sampleSum_eq (a n : Mat) (al nl : (⟨S65536, .i32⟩ : BufTy).Contents (Elt Ideal)) (mm : (⟨S8x8, .f32⟩ : BufTy).Contents (Elt Ideal)) :
    ∑ i : S65536.Idx, val_main_v23 (F := Ideal) a n al nl mm i = negSum a n (margin al nl mm) := by
  rw [sum_idx1]
  refine Finset.sum_congr rfl fun j _ => ?_
  rw [val_main_v23_apply, val_main_v22_apply, val_main_v7_apply, rowSum_eq]
  unfold resid
  generalize rowSq a n j = y
  show _ = sqDiff (val_main_v21 (F := Ideal) al nl mm (ix1 j)) (Ideal.sqrt y)
  generalize val_main_v21 (F := Ideal) al nl mm (ix1 j) = g0
  rfl

/-- The reference's result is the loss of its arguments, the margin gathered as it gathers it. -/
theorem ref_eq_loss (a p n : Mat) (al nl : (⟨S65536, .i32⟩ : BufTy).Contents (Elt Ideal)) (mm : (⟨S8x8, .f32⟩ : BufTy).Contents (Elt Ideal))
    (i : S_.Idx) : val_main_v26 (F := Ideal) a p n al nl mm i = loss a p n (margin al nl mm) := by
  rw [val_main_v26_apply, val_main_v3_apply, val_main_v25_apply, val_main_v2_apply, val_main_v24_apply,
    elemSum_eq, sampleSum_eq]
  rw [show (val_main_cst (F := Ideal)) (Shape.Idx.first h_S_) = 0 from Ideal.ofBits_zero_f32,
    show (val_main_cst_5 (F := Ideal)) (Shape.Idx.first h_S_) = 0 from Ideal.ofBits_zero_f32, zero_add, zero_add,
    val_main_cst_0_apply, val_main_cst_6_apply]
  unfold loss
  generalize mseSum a p = s1
  generalize negSum a n (margin al nl mm) = s2
  rfl

end Cert.RefValue

end
-- ==== Proof.Payload.lean ====
/-
  What the kernel's body leaves for one tile. From the tile's blocks `x0 x1 x2 : [4096, 256]` of the anchor, positive and
  negative embeddings and its block `x3 : [4096, 1]` of the margins, the body stores a `[1, 1, 2]` block holding

      at (0, 0, 0):  ∑ r, ∑ k, (x0 r k − x1 r k)²                    — the tile's part of the first sum,
      at (0, 0, 1):  ∑ r, (x3 r 0 − √(∑ k, (x0 r k − x2 r k)²))²      — the tile's part of the second.

  The two lane sums over all of a `[1, 4096, ·]` vector are total sums; the shape casts around them only relabel positions,
  so each is the sum over the rows (and columns) of the tile; the two scalars are laid side by side by a concatenation.
-/
import proofs.«132869_j25890062860768_2_alg».proof.Proof.Gen.KernelIdeal.Skeleton
import proofs.«132869_j25890062860768_2_alg».proof.Proof.Spec
import Idealize.ShloMosaic.Lib.Pipeline.Value
import Idealize.ShloMosaic.PureOps.Ideal.Laws

noncomputable section

open scoped BigOperators

namespace Cert.Tile

open Cert.KernelIdeal Cert.KernelIdeal.Gen Cert.Spec Cert.Lib.TileSum
open Idealize.ShloMosaic Idealize.ShloMosaic.ValueIdx

/-- A row sum kept as a column: the lane sum of `v` along its columns, cast from `[4096]` to `[4096, 1]`, holds at
    `(r, 0)` the sum of row `r` of `v`. -/
theorem rowSum_col (v : FVec Ideal S4096x256 .f32) (r : Fin 4096) :
    shapeCast S4096x1 (multiReduction .add [1] S4096 v 0x00000000#32 reduces_S4096x256_S4096 (.inl rfl) rfl)
        shapeCasts_S4096_S4096x1 (ix2 r (0 : Fin 1))
      = ∑ k : Fin 256, v (ix2 r k) := by
  refine (shapeCast_apply _ _ _ (ix1 r) ?_).trans ?_
  · rw [Shape.rowMajor_val_one, Shape.rowMajor_val_two]
    show r.val = r.val * 1 + 0
    omega
  refine (Ideal.multiReduction_add_single _ _ _ _ _ _).trans ?_
  refine Finset.sum_congr rfl fun k _ => congrArg v ?_
  exact funext fun d => Fin.ext (by match d with | ⟨0, _⟩ => rfl | ⟨1, _⟩ => rfl)

/-- The lane sum of a `[4096, 256]` tile over everything, taken through its `[1, 4096, 256]` cast and read back through
    the `[1] → [1, 1, 1]` cast at its one position, is the double sum over the tile's rows and columns. -/
theorem total_mat (v : FVec Ideal S4096x256 .f32) :
    shapeCast S1x1x1 (multiReduction .add [1, 2] S1 (shapeCast S1x4096x256 v shapeCasts_S4096x256_S1x4096x256) 0x00000000#32
        reduces_S1x4096x256_S1 (.inl rfl) rfl) shapeCasts_S1_S1x1x1 (fun a => ⟨(![0, 0, 0] : Fin 3 → ℕ) a, inpos_S1x1x1_p0_0_0 a⟩)
      = ∑ r : Fin 4096, ∑ k : Fin 256, v (ix2 r k) := by
  refine (shapeCast_apply _ _ _ (ix1 (0 : Fin 1)) ?_).trans ?_
  · rw [Shape.rowMajor_val_one, Shape.rowMajor_val_three]; rfl
  refine (Ideal.multiReduction_add_total _ _ _ (fun b => by match b with | ⟨0, _⟩ => rfl) _ _ _).trans ?_
  rw [sum_shapeCast, sum_idx2]

/-- The same for a one-column `[4096, 1]` tile: the sum over its rows. -/
theorem total_col (v : FVec Ideal S4096x1 .f32) :
    shapeCast S1x1x1 (multiReduction .add [1, 2] S1 (shapeCast S1x4096x1 v shapeCasts_S4096x1_S1x4096x1) 0x00000000#32
        reduces_S1x4096x1_S1 (.inl rfl) rfl) shapeCasts_S1_S1x1x1 (fun a => ⟨(![0, 0, 0] : Fin 3 → ℕ) a, inpos_S1x1x1_p0_0_0 a⟩)
      = ∑ r : Fin 4096, v (ix2 r (0 : Fin 1)) := by
  refine (shapeCast_apply _ _ _ (ix1 (0 : Fin 1)) ?_).trans ?_
  · rw [Shape.rowMajor_val_one, Shape.rowMajor_val_three]; rfl
  refine (Ideal.multiReduction_add_total _ _ _ (fun b => by match b with | ⟨0, _⟩ => rfl) _ _ _).trans ?_
  rw [sum_shapeCast, sum_unitCol]

/-- A scalar taken out of a `[1, 1, 1]` vector at its one position and splat over a `[1]` vector is that element. -/
theorem splat_extract (v : FVec Ideal S1x1x1 .f32) (i : S1.Idx) :
    broadcast S1 (extractAt ![0, 0, 0] v inpos_S1x1x1_p0_0_0) i
      = v (fun a => ⟨(![0, 0, 0] : Fin 3 → ℕ) a, inpos_S1x1x1_p0_0_0 a⟩) := rfl

/-- The square of a difference of vectors, at an index. -/
theorem sqDiff_at {s : Shape} (u w : FVec Ideal s .f32) (i : s.Idx) :
    mulf (subf u w) (subf u w) i = sqDiff (u i) (w i) := rfl

/-- The square root of a vector, at an index. -/
theorem sqrt_at {s : Shape} (u : FVec Ideal s .f32) (i : s.Idx) : sqrt u i = Ideal.sqrt (u i) := rfl

/-- The tile's part of the first sum: what the body stores at `(0, 0, 0)`. -/
theorem pay_mse (x0 x1 x2 : Vec Ideal S4096x256 .f32) (x3 : Vec Ideal S4096x1 .f32) :
    k0_pay1 (F := Ideal) x0 x1 x2 x3 (ix3 (0 : Fin 1) (0 : Fin 1) (0 : Fin 2))
      = ∑ r : Fin 4096, ∑ k : Fin 256, sqDiff (x0 (ix2 r k)) (x1 (ix2 r k)) := by
  unfold k0_pay1
  dsimp only
  refine (shapeCast_apply _ _ _ (ix1 (0 : Fin 2)) ?_).trans ?_
  · rw [Shape.rowMajor_val_one, Shape.rowMajor_val_three]; rfl
  refine (concatenate_pair_apply_left (t := S2) (s₁ := S1) (s₂ := S1) (0 : Fin 1) _ _ _ _ rfl (ix1 (0 : Fin 1)) ?_).trans ?_
  · intro b; match b with | ⟨0, _⟩ => rfl
  refine (splat_extract _ _).trans ?_
  refine (total_mat _).trans ?_
  refine Finset.sum_congr rfl fun r _ => Finset.sum_congr rfl fun k _ => ?_
  exact sqDiff_at x0 x1 (ix2 r k)

/-- The tile's part of the second sum: what the body stores at `(0, 0, 1)`. -/
theorem pay_neg (x0 x1 x2 : Vec Ideal S4096x256 .f32) (x3 : Vec Ideal S4096x1 .f32) :
    k0_pay1 (F := Ideal) x0 x1 x2 x3 (ix3 (0 : Fin 1) (0 : Fin 1) (1 : Fin 2))
      = ∑ r : Fin 4096, sqDiff (x3 (ix2 r (0 : Fin 1))) (Ideal.sqrt (∑ k : Fin 256, sqDiff (x0 (ix2 r k)) (x2 (ix2 r k)))) := by
  unfold k0_pay1
  dsimp only
  refine (shapeCast_apply _ _ _ (ix1 (1 : Fin 2)) ?_).trans ?_
  · rw [Shape.rowMajor_val_one, Shape.rowMajor_val_three]; rfl
  refine (concatenate_pair_apply_right (t := S2) (s₁ := S1) (s₂ := S1) (0 : Fin 1) _ _ _ _ rfl rfl (ix1 (0 : Fin 1)) ?_ ?_).trans ?_
  · intro b hb; match b with | ⟨0, _⟩ => exact absurd rfl hb
  · rfl
  refine (splat_extract _ _).trans ?_
  refine (total_col _).trans ?_
  refine Finset.sum_congr rfl fun r _ => ?_
  refine (sqDiff_at _ _ _).trans ?_
  rw [shapeCast_self, sqrt_at, rowSum_col]
  refine congrArg (fun s => sqDiff (x3 (ix2 r (0 : Fin 1))) (Ideal.sqrt s)) ?_
  refine Finset.sum_congr rfl fun k _ => ?_
  exact sqDiff_at x0 x2 (ix2 r k)

end Cert.Tile

end
-- ==== Proof.TileOut.lean ====
/-
  One tile's block of results as a function of the WHOLE arrays. If the tile's blocks `x0 x1 x2 x3` are rows
  `4096 T … 4096 T + 4095` of the arrays `A0 A1 A2 : [65536, 256]` and of the margin column `Mg : [65536, 1]`, the body's
  `[1, 1, 2]` block holds at `(0, 0, e)` tile `T`'s part of the first sum (`e = 0`) or of the second (`e = 1`):
  `tilePart`. The array of all sixteen blocks is `partials`.
-/
import proofs.«132869_j25890062860768_2_alg».proof.Proof.Payload

noncomputable section

open scoped BigOperators

namespace Cert.Tile

open Cert.KernelIdeal Cert.KernelIdeal.Gen Cert.Spec Cert.Lib.TileSum
open Idealize.ShloMosaic Idealize.ShloMosaic.ValueIdx

/-- A one-column matrix `[65536, 1]` as the vector of its rows. -/
def colOf (Mg : (⟨2, ![65536, 1]⟩ : Shape).Idx → EReal) : Col := fun i => Mg (ix2 (i 0) (0 : Fin 1))

/-- Tile `T`'s part of the first sum (`e = 0`) or of the second (otherwise). -/
def tilePart (a p n : Mat) (g : Col) (T : Fin 16) (e : ℕ) : EReal :=
  if e = 0 then ∑ r : Fin 4096, rowSq a p (row T r) else ∑ r : Fin 4096, resid a n g (row T r)

/-- The `[16, 1, 2]` array of the tiles' parts: at `(T, 0, e)` tile `T`'s part `e`. -/
def partials (a p n : Mat) (g : Col) : (⟨3, ![16, 1, 2]⟩ : Shape).Idx → EReal :=
  fun i => tilePart a p n g ⟨(i 0).val, (i 0).isLt⟩ (i 2).val

/-- `partials` at an index whose first coordinate is `T` and last is `e`. -/
theorem partials_eq (a p n : Mat) (g : Col) (i : (⟨3, ![16, 1, 2]⟩ : Shape).Idx) (T : Fin 16) (e : ℕ)
    (h0 : (i 0).val = T.val) (h2 : (i 2).val = e) : partials a p n g i = tilePart a p n g T e := by
  unfold partials
  rw [show (⟨(i 0).val, (i 0).isLt⟩ : Fin 16) = T from Fin.ext h0, h2]

/-- What the body stores for tile `T`, from blocks that are the tile's rows of the arrays. -/
theorem tile_out (x0 x1 x2 : Vec Ideal S4096x256 .f32) (x3 : Vec Ideal S4096x1 .f32) (A0 A1 A2 : Mat)
    (Mg : (⟨2, ![65536, 1]⟩ : Shape).Idx → EReal) (T : Fin 16)
    (h0 : ∀ (r : Fin 4096) (k : Fin 256), x0 (ix2 r k) = A0 (ix2 (row T r) k))
    (h1 : ∀ (r : Fin 4096) (k : Fin 256), x1 (ix2 r k) = A1 (ix2 (row T r) k))
    (h2 : ∀ (r : Fin 4096) (k : Fin 256), x2 (ix2 r k) = A2 (ix2 (row T r) k))
    (h3 : ∀ r : Fin 4096, x3 (ix2 r (0 : Fin 1)) = Mg (ix2 (row T r) (0 : Fin 1)))
    (y : S1x1x2.Idx) :
    k0_pay1 (F := Ideal) x0 x1 x2 x3 y = tilePart A0 A1 A2 (colOf Mg) T (y 2).val := by
  have hy0 : (y 0).val < 1 := (y 0).isLt
  have hy1 : (y 1).val < 1 := (y 1).isLt
  have hy2 : (y 2).val < 2 := (y 2).isLt
  unfold tilePart
  by_cases h : (y 2).val = 0
  · have hy : y = ix3 (0 : Fin 1) (0 : Fin 1) (0 : Fin 2) := funext fun a => Fin.ext (by
      match a with
      | ⟨0, _⟩ => show (y 0).val = 0; omega
      | ⟨1, _⟩ => show (y 1).val = 0; omega
      | ⟨2, _⟩ => show (y 2).val = 0; omega)
    rw [if_pos h, hy]
    refine (pay_mse x0 x1 x2 x3).trans ?_
    refine Finset.sum_congr rfl fun r _ => ?_
    unfold rowSq
    refine Finset.sum_congr rfl fun k _ => ?_
    rw [h0, h1]
  · have hy : y = ix3 (0 : Fin 1) (0 : Fin 1) (1 : Fin 2) := funext fun a => Fin.ext (by
      match a with
      | ⟨0, _⟩ => show (y 0).val = 0; omega
      | ⟨1, _⟩ => show (y 1).val = 0; omega
      | ⟨2, _⟩ => show (y 2).val = 1; omega)
    rw [if_neg h, hy]
    refine (pay_neg x0 x1 x2 x3).trans ?_
    refine Finset.sum_congr rfl fun r _ => ?_
    unfold resid rowSq
    rw [h3]
    refine congrArg (fun s => sqDiff (Mg (ix2 (row T r) (0 : Fin 1))) (Ideal.sqrt s)) ?_
    refine Finset.sum_congr rfl fun k _ => ?_
    rw [h0, h2]

end Cert.Tile

end
-- ==== Proof.KBlocks.lean ====
/-
  The kernel's result array. Grid point `t` reads rows `4096 t … 4096 t + 4095` of the three embedding arrays and of the
  margin column (each window's index map is `t ↦ (t, 0)`), and writes block `(t, 0, 0)` of the `[16, 1, 2]` result, which
  therefore holds tile `t`'s two partial sums. The sixteen blocks tile the result, so after the region it is `partials`
  of the arrays as the region finds them.
-/
import proofs.«132869_j25890062860768_2_alg».proof.Proof.Gen.KernelIdeal.Frame
import proofs.«132869_j25890062860768_2_alg».proof.Proof.TileOut

noncomputable section

open scoped BigOperators

namespace Cert.KValue

open Cert.KernelIdeal Cert.KernelIdeal.Gen Cert.Spec Cert.Lib.TileSum Cert.Tile
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: every window's block index at point `t` is `t` on the first axis and
    `0` on the others. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Window 0's block at point `t` is rows `4096 t … 4096 t + 4095` of its array. -/
theorem blk0 (c : Dev nD) (t : Fin cfg0.N) (T : Fin 16) (hT : t.val = T.val) (r : Fin 4096) (k : Fin 256) :
    (iblk m c 0 t : Vec Ideal S4096x256 .f32) (ix2 r k) = (V m c main_arg0 : S65536x256.Idx → EReal) (ix2 (row T r) k) := by
  have e0 : win0_0.index t (0 : Fin 2) = t.val := (idx_facts t).1
  have e1 : win0_0.index t (1 : Fin 2) = 0 := (idx_facts t).2.1
  unfold iblk
  rw [View.read_apply]
  refine congrArg (V m c main_arg0) ?_
  funext a
  apply Fin.ext
  match a with
  | ⟨0, _⟩ => show win0_0.index t (0 : Fin 2) * 4096 + 1 * r.val = 4096 * T.val + r.val; rw [e0, hT]; omega
  | ⟨1, _⟩ => show win0_0.index t (1 : Fin 2) * 256 + 1 * k.val = k.val; rw [e1]; omega

/-- Window 1's block at point `t` is rows `4096 t … 4096 t + 4095` of its array. -/
theorem blk1 (c : Dev nD) (t : Fin cfg0.N) (T : Fin 16) (hT : t.val = T.val) (r : Fin 4096) (k : Fin 256) :
    (iblk m c 1 t : Vec Ideal S4096x256 .f32) (ix2 r k) = (V m c main_arg1 : S65536x256.Idx → EReal) (ix2 (row T r) k) := by
  have e0 : win0_1.index t (0 : Fin 2) = t.val := (idx_facts t).2.2.1
  have e1 : win0_1.index t (1 : Fin 2) = 0 := (idx_facts t).2.2.2.1
  unfold iblk
  rw [View.read_apply]
  refine congrArg (V m c main_arg1) ?_
  funext a
  apply Fin.ext
  match a with
  | ⟨0, _⟩ => show win0_1.index t (0 : Fin 2) * 4096 + 1 * r.val = 4096 * T.val + r.val; rw [e0, hT]; omega
  | ⟨1, _⟩ => show win0_1.index t (1 : Fin 2) * 256 + 1 * k.val = k.val; rw [e1]; omega

/-- Window 2's block at point `t` is rows `4096 t … 4096 t + 4095` of its array. -/
theorem blk2 (c : Dev nD) (t : Fin cfg0.N) (T : Fin 16) (hT : t.val = T.val) (r : Fin 4096) (k : Fin 256) :
    (iblk m c 2 t : Vec Ideal S4096x256 .f32) (ix2 r k) = (V m c main_arg2 : S65536x256.Idx → EReal) (ix2 (row T r) k) := by
  have e0 : win0_2.index t (0 : Fin 2) = t.val := (idx_facts t).2.2.2.2.1
  have e1 : win0_2.index t (1 : Fin 2) = 0 := (idx_facts t).2.2.2.2.2.1
  unfold iblk
  rw [View.read_apply]
  refine congrArg (V m c main_arg2) ?_
  funext a
  apply Fin.ext
  match a with
  | ⟨0, _⟩ => show win0_2.index t (0 : Fin 2) * 4096 + 1 * r.val = 4096 * T.val + r.val; rw [e0, hT]; omega
  | ⟨1, _⟩ => show win0_2.index t (1 : Fin 2) * 256 + 1 * k.val = k.val; rw [e1]; omega

/-- The margin window's block at point `t` is rows `4096 t … 4096 t + 4095` of the margin column. -/
theorem blk3 (c : Dev nD) (t : Fin cfg0.N) (T : Fin 16) (hT : t.val = T.val) (r : Fin 4096) :
    (iblk m c 3 t : Vec Ideal S4096x1 .f32) (ix2 r (0 : Fin 1)) = (V m c main_v14 : S65536x1.Idx → EReal) (ix2 (row T r) (0 : Fin 1)) := by
  have e0 : win0_3.index t (0 : Fin 2) = t.val := (idx_facts t).2.2.2.2.2.2.1
  have e1 : win0_3.index t (1 : Fin 2) = 0 := (idx_facts t).2.2.2.2.2.2.2.1
  unfold iblk
  rw [View.read_apply]
  refine congrArg (V m c main_v14) ?_
  funext a
  apply Fin.ext
  match a with
  | ⟨0, _⟩ => show win0_3.index t (0 : Fin 2) * 4096 + 1 * r.val = 4096 * T.val + r.val; rw [e0, hT]; omega
  | ⟨1, _⟩ => show win0_3.index t (1 : Fin 2) * 1 + 1 * 0 = 0; rw [e1]

/-- The result array as the region leaves it: the tiles' parts of the two sums, of the arrays as the region finds them. -/
abbrev result (c : Dev nD) : S16x1x2.Idx → EReal :=
  partials (V m c main_arg0) (V m c main_arg1) (V m c main_arg2) (colOf (V m c main_v14))

/-- What point `t` writes back is block `t` of `result`. -/
theorem flushed_eq (c : Dev nD) (t : Fin cfg0.N) :
    (dats m 0 c).flushed 4 t = ((cfg0.win 4).blk t).view.read (Elt Ideal) (result m c) := by
  have hN : cfg0.N = 16 := N_0
  have ht : t.val < cfg0.N := t.isLt
  have e40 : win0_4.index t (0 : Fin 3) = t.val := (idx_facts t).2.2.2.2.2.2.2.2.1
  have e42 : win0_4.index t (2 : Fin 3) = 0 := (idx_facts t).2.2.2.2.2.2.2.2.2.2
  show (cfg0.win 4).cut (grid0.coords t) ((dats m 0 c).after 4 t) = _
  rw [after0_4]
  unfold out0_4
  rw [View.canon_unit_zero hz3]
  simp only [View.ld_unit_zero (S := S4096x256) hz2, View.ld_unit_zero (S := S4096x1) hz2]
  funext y
  show k0_pay1 (F := Ideal) (iblk m c 0 t) (iblk m c 1 t) (iblk m c 2 t) (iblk m c 3 t) y
    = result m c (((cfg0.win 4).blk t).view.emb y)
  have hT : t.val = (⟨t.val, by omega⟩ : Fin 16).val := rfl
  refine (tile_out (iblk m c 0 t) (iblk m c 1 t) (iblk m c 2 t) (iblk m c 3 t) (V m c main_arg0) (V m c main_arg1)
    (V m c main_arg2) (V m c main_v14) ⟨t.val, by omega⟩ (blk0 m c t _ hT) (blk1 m c t _ hT) (blk2 m c t _ hT)
    (blk3 m c t _ hT) y).trans ?_
  refine (partials_eq _ _ _ _ _ _ _ ?_ ?_).symm
  · show win0_4.index t (0 : Fin 3) * 1 + 1 * (y 0).val = t.val
    have hy0 : (y 0).val < 1 := (y 0).isLt
    rw [e40]; omega
  · show win0_4.index t (2 : Fin 3) * 2 + 1 * (y 2).val = (y 2).val
    rw [e42]; omega

/-- An index of the result is in point `t`'s block iff each coordinate is in the block's range on its axis. -/
theorem mem_blk (t : Fin cfg0.N) (i : S16x1x2.Idx) :
    i ∈ ((cfg0.win 4).blk t).view.set ↔ ∀ a : Fin 3, win0_4.index t a * S1x1x2.size a ≤ (i a).val
      ∧ (i a).val < win0_4.index t a * S1x1x2.size a + S1x1x2.size a := by
  show i ∈ ((View.whole main_v15).slice (win0_4.rect t)).set ↔ _
  rw [View.set_slice_whole, Rect.mem_set_unit]
  exact Iff.rfl

/-- Every index `(T, 0, e)` of the result is in point `T`'s block, and every point writes its block back. -/
theorem cover (i : S16x1x2.Idx) : ∃ t : Fin cfg0.N, (cfg0.win 4).flush t = true ∧ i ∈ ((cfg0.win 4).blk t).view.set := by
  have hN : cfg0.N = 16 := N_0
  have hi0 : (i 0).val < 16 := (i 0).isLt
  have hi1 : (i 1).val < 1 := (i 1).isLt
  have hi2 : (i 2).val < 2 := (i 2).isLt
  have hlt : (i 0).val < cfg0.N := by omega
  refine ⟨⟨(i 0).val, hlt⟩, flush0_4 _, ?_⟩
  rw [mem_blk]
  have e40 : win0_4.index ⟨(i 0).val, hlt⟩ (0 : Fin 3) = (i 0).val := (idx_facts ⟨(i 0).val, hlt⟩).2.2.2.2.2.2.2.2.1
  have e41 : win0_4.index ⟨(i 0).val, hlt⟩ (1 : Fin 3) = 0 := (idx_facts ⟨(i 0).val, hlt⟩).2.2.2.2.2.2.2.2.2.1
  have e42 : win0_4.index ⟨(i 0).val, hlt⟩ (2 : Fin 3) = 0 := (idx_facts ⟨(i 0).val, hlt⟩).2.2.2.2.2.2.2.2.2.2
  intro a
  match a with
  | ⟨0, _⟩ =>
    show win0_4.index ⟨(i 0).val, hlt⟩ (0 : Fin 3) * 1 ≤ (i 0).val ∧ (i 0).val < win0_4.index ⟨(i 0).val, hlt⟩ (0 : Fin 3) * 1 + 1
    rw [e40]; omega
  | ⟨1, _⟩ =>
    show win0_4.index ⟨(i 0).val, hlt⟩ (1 : Fin 3) * 1 ≤ (i 1).val ∧ (i 1).val < win0_4.index ⟨(i 0).val, hlt⟩ (1 : Fin 3) * 1 + 1
    rw [e41]; omega
  | ⟨2, _⟩ =>
    show win0_4.index ⟨(i 0).val, hlt⟩ (2 : Fin 3) * 2 ≤ (i 2).val ∧ (i 2).val < win0_4.index ⟨(i 0).val, hlt⟩ (2 : Fin 3) * 2 + 2
    rw [e42]; omega

/-- The result array after the region. -/
theorem final (c : Dev nD) : (dats m 0 c).arrAt 4 cfg0.N = result m c :=
  (dats m 0 c).arrAt_eq_of_cover 4 (result m c) (fun t _ => flushed_eq m c t) cover

end Cert.KValue

end
-- ==== Proof.KTail.lean ====
/-
  The host operations after the region, as ONE function `tail` of the `[16, 1, 2]` array the region leaves: its two
  columns (the array viewed `[16, 2]`, sliced, viewed `[16]`) are each summed from zero over the sixteen tiles, the sums
  divided by 2²⁴ and by 2¹⁶, and the two quotients added. When the array holds the tiles' parts of the two sums
  (`partials`), the column sums are the two sums of the loss regrouped by tiles, so `tail` is the loss.
-/
import proofs.«132869_j25890062860768_2_alg».proof.Proof.Gen.KernelIdeal
import proofs.«132869_j25890062860768_2_alg».proof.Proof.TileOut

noncomputable section

open scoped BigOperators

namespace Cert.KValue

open Cert.KernelIdeal Cert.KernelIdeal.Gen Cert.Spec Cert.Lib.TileSum Cert.Tile
open Idealize.ShloMosaic Idealize.ShloMosaic.ValueIdx

/-- The operations after the region, of the array the region leaves. -/
def tail (arr : FVec Ideal S16x1x2 .f32) : FVec Ideal S_ .f32 :=
  addf (F := Ideal)
    (Host.divf (F := Ideal)
      (Host.reduceAdd (F := Ideal)
        (shapeCast S16 (extractStridedSlice S16x1 ![0, 0] (shapeCast S16x2 arr shapeCasts_S16x1x2_S16x2) slices_S16x2_S16x1_0_0)
          shapeCasts_S16x1_S16)
        (constant (F := Ideal) S_ .f32 0x00000000#32) reducesTo_S16_S_d0 h_S_)
      (constant (F := Ideal) S_ .f32 0x4B800000#32))
    (Host.divf (F := Ideal)
      (Host.reduceAdd (F := Ideal)
        (shapeCast S16 (extractStridedSlice S16x1 ![0, 1] (shapeCast S16x2 arr shapeCasts_S16x1x2_S16x2) slices_S16x2_S16x1_0_1)
          shapeCasts_S16x1_S16)
        (constant (F := Ideal) S_ .f32 0x00000000#32) reducesTo_S16_S_d0 h_S_)
      (constant (F := Ideal) S_ .f32 0x47800000#32))

/-- The host's sum from zero of a vector `[16]` is the sum of its entries. -/
theorem reduce16 (x : FVec Ideal S16 .f32) (i : S_.Idx) :
    Host.reduceAdd (F := Ideal) x (constant (F := Ideal) S_ .f32 0x00000000#32) reducesTo_S16_S_d0 h_S_ i
      = ∑ T : Fin 16, x (ix1 T) := by
  simp only [Host.reduceAdd, Ideal.hostReduceAdd_def]
  refine (Ideal.hostReduceAdd_total reducesTo_S16_S_d0 (fun b => b.elim0) x _ i).trans ?_
  rw [sum_idx1]
  show Ideal.ofBits .f32 0x00000000#32 + _ = _
  rw [Ideal.ofBits_zero_f32, zero_add]

/-- Column 0 of the array, as a vector `[16]`: entry `T` is the array at `(T, 0, 0)`. -/
theorem col0 (arr : FVec Ideal S16x1x2 .f32) (T : Fin 16) :
    shapeCast S16 (extractStridedSlice S16x1 ![0, 0] (shapeCast S16x2 arr shapeCasts_S16x1x2_S16x2) slices_S16x2_S16x1_0_0)
        shapeCasts_S16x1_S16 (ix1 T)
      = arr (ix3 T (0 : Fin 1) (0 : Fin 2)) := by
  refine (shapeCast_apply _ _ _ (ix2 T (0 : Fin 1)) ?_).trans ?_
  · rw [Shape.rowMajor_val_two, Shape.rowMajor_val_one]
    show T.val * 1 + 0 = T.val
    omega
  refine (extractStridedSlice_apply _ _ _ _ (ix2 T (0 : Fin 2)) ?_).trans ?_
  · intro a
    match a with
    | ⟨0, _⟩ => show T.val = 0 + T.val; omega
    | ⟨1, _⟩ => rfl
  refine shapeCast_apply _ _ _ (ix3 T (0 : Fin 1) (0 : Fin 2)) ?_
  rw [Shape.rowMajor_val_three, Shape.rowMajor_val_two]
  show (T.val * 1 + 0) * 2 + 0 = T.val * 2 + 0
  omega

/-- Column 1 of the array, as a vector `[16]`: entry `T` is the array at `(T, 0, 1)`. -/
theorem col1 (arr : FVec Ideal S16x1x2 .f32) (T : Fin 16) :
    shapeCast S16 (extractStridedSlice S16x1 ![0, 1] (shapeCast S16x2 arr shapeCasts_S16x1x2_S16x2) slices_S16x2_S16x1_0_1)
        shapeCasts_S16x1_S16 (ix1 T)
      = arr (ix3 T (0 : Fin 1) (1 : Fin 2)) := by
  refine (shapeCast_apply _ _ _ (ix2 T (0 : Fin 1)) ?_).trans ?_
  · rw [Shape.rowMajor_val_two, Shape.rowMajor_val_one]
    show T.val * 1 + 0 = T.val
    omega
  refine (extractStridedSlice_apply _ _ _ _ (ix2 T (1 : Fin 2)) ?_).trans ?_
  · intro a
    match a with
    | ⟨0, _⟩ => show T.val = 0 + T.val; omega
    | ⟨1, _⟩ => rfl
  refine shapeCast_apply _ _ _ (ix3 T (0 : Fin 1) (1 : Fin 2)) ?_
  rw [Shape.rowMajor_val_three, Shape.rowMajor_val_two]
  show (T.val * 1 + 0) * 2 + 1 = T.val * 2 + 1
  omega

/-- A sum of two quotients by splat constants, at the scalar's one index. -/
theorem add_div_at (u w : FVec Ideal S_ .f32) (cu cw : BitVec 32) (i : S_.Idx) :
    addf (F := Ideal) (Host.divf (F := Ideal) u (constant (F := Ideal) S_ .f32 cu))
        (Host.divf (F := Ideal) w (constant (F := Ideal) S_ .f32 cw)) i
      = Ideal.div (u i) (Ideal.ofBits .f32 cu) + Ideal.div (w i) (Ideal.ofBits .f32 cw) := rfl

/-- `tail` read: the two column sums over the tiles, divided and added. -/
theorem tail_apply (arr : FVec Ideal S16x1x2 .f32) (i : S_.Idx) :
    tail arr i = Ideal.div (∑ T : Fin 16, arr (ix3 T (0 : Fin 1) (0 : Fin 2))) (Ideal.ofBits .f32 0x4B800000#32)
      + Ideal.div (∑ T : Fin 16, arr (ix3 T (0 : Fin 1) (1 : Fin 2))) (Ideal.ofBits .f32 0x47800000#32) := by
  unfold tail
  refine (add_div_at _ _ _ _ i).trans ?_
  rw [reduce16, reduce16]
  simp only [col0, col1]

/-- Of the tiles' parts of the two sums, `tail` is the loss: the column sums are the two sums regrouped by tiles. -/
theorem tail_partials (a p n : Mat) (g : Col) (i : S_.Idx) : tail (partials a p n g) i = loss a p n g := by
  rw [tail_apply]
  unfold loss
  rw [mseSum_tiles, negSum_tiles]
  have e0 : ∀ T : Fin 16, partials a p n g (ix3 T (0 : Fin 1) (0 : Fin 2)) = ∑ r : Fin 4096, rowSq a p (row T r) :=
    fun T => (partials_eq a p n g _ T 0 rfl rfl).trans (if_pos rfl)
  have e1 : ∀ T : Fin 16, partials a p n g (ix3 T (0 : Fin 1) (1 : Fin 2)) = ∑ r : Fin 4096, resid a n g (row T r) :=
    fun T => (partials_eq a p n g _ T 1 rfl rfl).trans (if_neg (by decide))
  simp only [e0, e1]

end Cert.KValue

end
-- ==== Proof.KRun.lean ====
/-
  The kernel program's run, read. Before the region the host gathers the margin table at the two label vectors (a
  negative label wrapped by 8 first) and lays the gathered vector out as a column `[65536, 1]`: that column is window 3's
  array. The region leaves the `[16, 1, 2]` array of the tiles' parts; the operations after it are `tail`. So the
  program's result is the loss of its three embedding arguments and of the gathered margins, and its arguments end
  unchanged.
-/
import proofs.«132869_j25890062860768_2_alg».proof.Proof.KBlocks
import proofs.«132869_j25890062860768_2_alg».proof.Proof.KTail
import Idealize.ShloMosaic.Lib.StableHlo.Run

noncomputable section

open scoped BigOperators

namespace Cert.KValue

open Cert.KernelIdeal Cert.KernelIdeal.Gen Cert.Spec Cert.Lib.TileSum Cert.Tile
open Idealize.ShloMosaic Idealize.ShloMosaic.TcCoe Idealize.SL.Sem Idealize.ShloMosaic.ValueIdx
open Idealize.ShloMosaic.StableHlo
open Idealize.ShloMosaic.Pipeline (Dat)

/-- A label vector with its negative entries moved up by 8 (the wrap-around of a negative index into an axis of 8). -/
def wrapLabels (x : (⟨S65536, .i32⟩ : BufTy).Contents (Elt Ideal)) : (⟨S65536, .i32⟩ : BufTy).Contents (Elt Ideal) :=
  select (cmpi .slt x (broadcastInDim S65536 ![] bcast_S_S65536 (constantI S_ 32 0#32)))
    (addi x (broadcastInDim S65536 ![] bcast_S_S65536 (constantI S_ 32 8#32))) x

/-- The per-sample margin as the kernel program gathers it: the margin table at each sample's pair of labels. -/
def kmargin (al nl : (⟨S65536, .i32⟩ : BufTy).Contents (Elt Ideal)) (mm : (⟨S8x8, .f32⟩ : BufTy).Contents (Elt Ideal)) :
    (⟨S65536, .f32⟩ : BufTy).Contents (Elt Ideal) :=
  Host.gather gather_S8x8_S65536x2_S65536_n_01_n_n_01_1_11 mm
    (concatenate S65536x2 1
      [⟨S65536x1, broadcastInDim S65536x1 ![0] bcast_S65536_S65536x1_0 (wrapLabels al)⟩,
       ⟨S65536x1, broadcastInDim S65536x1 ![0] bcast_S65536_S65536x1_0 (wrapLabels nl)⟩]
      concatenates_S65536x1_S65536x1_S65536x2_d1)

/-- A vector laid out as a column and read back as the vector of the column's rows is the vector. -/
theorem colOf_shapeCast (g : (⟨S65536, .f32⟩ : BufTy).Contents (Elt Ideal)) :
    colOf (shapeCast S65536x1 g shapeCasts_S65536_S65536x1) = g := by
  funext i
  show shapeCast S65536x1 g shapeCasts_S65536_S65536x1 (ix2 (i 0) (0 : Fin 1)) = g i
  refine shapeCast_apply _ _ _ i ?_
  rw [Shape.rowMajor_val_one, Shape.rowMajor_val_two]
  show (i 0).val = (i 0).val * 1 + 0
  omega

variable (m : (ℓ : Loc nD τ sig) → Buf (Elt Ideal) ℓ) (ρ : Dev nD → PrngReg)

set_option maxHeartbeats 2000000 in
/-- Window 3's array as the region finds it: the gathered margins as a column. -/
theorem V_margin (c : Dev nD) :
    V m c main_v14 = shapeCast S65536x1 (kmargin (m ((c.tc : Thread nD τ).loc main_arg3)) (m ((c.tc : Thread nD τ).loc main_arg4))
      (m ((c.tc : Thread nD τ).loc main_arg5))) shapeCasts_S65536_S65536x1 := by
  show StableHlo.after hostOps0 (fun b => m (c, b)) (Proc.devRef .tc main_v14) = _
  after_results_simp <;> rfl

/-- The program's result after the operations that follow the region is `tail` of the array the region leaves. -/
theorem tail_eq (c : Dev nD) :
    Pipeline.afterTail₀ cfgs (dats m) 0 (V0 m) [hostOps1] c main_v25 = tail ((dats m 0 c).arrAt 4 cfg0.N) := by
  have hW : Pipeline.withArrays (cfgs 0).spec c (V0 m c) (fun w => (dats m 0 c).arrAt w (cfgs 0).N) (Proc.devRef .tc main_v15)
      = (dats m 0 c).arrAt 4 cfg0.N :=
    Pipeline.withArrays_arr spec0 launch0.win.arr_inj c _ _ 4
  unfold Pipeline.afterTail₀
  show StableHlo.after hostOps1 _ (Proc.devRef .tc main_v25) = _
  after_results
  rw [hW]
  generalize (dats m 0 c).arrAt 4 cfg0.N = A
  rfl

/-- The program's result: the loss of its embedding arguments and of the margins it gathers. -/
theorem value (c : Dev nD) :
    Pipeline.afterTail₀ cfgs (dats m) 0 (V0 m) [hostOps1] c main_v25
      = fun _ => loss (m ((c.tc : Thread nD τ).loc main_arg0)) (m ((c.tc : Thread nD τ).loc main_arg1))
          (m ((c.tc : Thread nD τ).loc main_arg2))
          (kmargin (m ((c.tc : Thread nD τ).loc main_arg3)) (m ((c.tc : Thread nD τ).loc main_arg4))
            (m ((c.tc : Thread nD τ).loc main_arg5))) := by
  refine (tail_eq m c).trans ?_
  rw [final]
  funext i
  refine (tail_partials _ _ _ _ i).trans ?_
  rw [V_main_arg0 m c, V_main_arg1 m c, V_main_arg2 m c, V_margin m c, colOf_shapeCast]

/-- The run: every weakly fair execution terminates with the result at the loss and the arguments unchanged. -/
theorem run : θ_run defs (onTc (τ := τ) (main (F := Ideal))) ⟨m, fun _ => 0, ρ⟩ fun r => ∀ c : Dev nD,
      r.2.mem ((c.tc : Thread nD τ).loc main_v25)
        = (fun _ => loss (m ((c.tc : Thread nD τ).loc main_arg0)) (m ((c.tc : Thread nD τ).loc main_arg1))
          (m ((c.tc : Thread nD τ).loc main_arg2))
          (kmargin (m ((c.tc : Thread nD τ).loc main_arg3)) (m ((c.tc : Thread nD τ).loc main_arg4))
            (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v25 (Pipeline.mem_restRefs_of main_v25 (by decide) (by decide))).trans (value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KValue

end
-- ==== Proof.lean ====
/-
  The certificate's proof. Both programs compute, at the exact extended-real reading of their floats,

      loss = (∑ j, ∑ k, (a j k − p j k)²) / 2²⁴  +  (∑ j, (g j − √(∑ k, (a j k − n j k)²))²) / 2¹⁶,

  where `a p n` are the anchor, positive and negative embeddings `[65536, 256]` and `g j` is the margin table read at
  sample `j`'s pair of labels (a negative label first wrapped by 8) — the same gather in both programs.

  The reference takes the two sums over all 65536 rows at once. The kernel cuts the rows into sixteen tiles of 4096: grid
  point `t` reads rows `4096 t … 4096 t + 4095` of the three arrays and of the margin column and writes the tile's two
  partial sums; the host then adds the sixteen partial sums of each kind, divides by the same two powers of two and adds.
  A sum over 65536 rows is the sum over the sixteen tiles of the sums over each tile's rows — commutativity and
  associativity of addition, which hold on all of the extended reals — so the two results are equal whatever the inputs
  are: the finiteness precondition is never used.

  The three frames: the kernel program's two readings by their generated frame certificates, the reference's by its
  generated run. The idealization rewrote nothing, so there is nothing to preserve.
-/
import proofs.«132869_j25890062860768_2_alg».proof.Defs
import proofs.«132869_j25890062860768_2_alg».proof.Proof.Gen.Kernel
import proofs.«132869_j25890062860768_2_alg».proof.Proof.Gen.Kernel.Skeleton
import proofs.«132869_j25890062860768_2_alg».proof.Proof.Gen.Kernel.Launch
import proofs.«132869_j25890062860768_2_alg».proof.Proof.Gen.Kernel.Points
import proofs.«132869_j25890062860768_2_alg».proof.Proof.Gen.Kernel.Frame
import proofs.«132869_j25890062860768_2_alg».proof.Proof.Gen.KernelIdeal
import proofs.«132869_j25890062860768_2_alg».proof.Proof.Gen.KernelIdeal.Skeleton
import proofs.«132869_j25890062860768_2_alg».proof.Proof.Gen.KernelIdeal.Launch
import proofs.«132869_j25890062860768_2_alg».proof.Proof.Gen.KernelIdeal.Points
import proofs.«132869_j25890062860768_2_alg».proof.Proof.Gen.KernelIdeal.Frame
import proofs.«132869_j25890062860768_2_alg».proof.Proof.Gen.ReferenceIdeal
import proofs.«132869_j25890062860768_2_alg».proof.Proof.Gen.ReferenceIdeal.Run
import proofs.«132869_j25890062860768_2_alg».proof.Proof.Gen.ReferenceIdeal.Read
import proofs.«132869_j25890062860768_2_alg».proof.Proof.Gen.Pre_finite_inputs
import proofs.«132869_j25890062860768_2_alg».proof.Proof.RefIsLoss
import proofs.«132869_j25890062860768_2_alg».proof.Proof.KRun
import Idealize.ShloMosaic.Adequacy
import Idealize.ShloMosaic.Init

noncomputable section

namespace Cert.Proof

open Idealize.ShloMosaic Idealize.SL.Sem

/-- The two programs gather the margins by the same operations: one vector. -/
theorem margin_eq (al nl : (⟨Cert.KernelIdeal.S65536, .i32⟩ : BufTy).Contents (Elt Ideal))
    (mm : (⟨Cert.KernelIdeal.S8x8, .f32⟩ : BufTy).Contents (Elt Ideal)) :
    Cert.RefValue.margin al nl mm = Cert.KValue.kmargin al nl mm := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end at the loss of those arguments. -/
theorem algebraic : Cert.algebraic_KernelIdeal_ReferenceIdeal := by
  intro m ρ m' ρ' _ hagree
  refine ⟨_, Cert.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq]
  funext i
  rw [Cert.RefValue.ref_eq_loss, (hagree c).1, (hagree c).2.1, (hagree c).2.2.1, (hagree c).2.2.2.1,
    (hagree c).2.2.2.2.1, (hagree c).2.2.2.2.2, margin_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
